-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S64x8192 : Shape := ⟨2, ![64, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x8192 : S_.BroadcastsInDim S64x8192 (![] : Fin 0 → Fin S64x8192.rank)
  reducesTo_S64x8192_S_d0_1 : S64x8192.ReducesTo [0, 1] S_

variable [Facts]

def fn {F : FTy → Type} [FloatOps F] (main_arg0 : FVec F S8192x8192 .f32) (main_arg1 : FVec F S8192x64 .f32) (main_arg2 : FVec F S64x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x8192 .f32 := Host.absf main_arg2
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  main_v13
-- ==== Kernel.lean ====
abbrev S8192x8192 : Shape := ⟨2, ![8192, 8192]⟩
abbrev S8192x64 : Shape := ⟨2, ![8192, 64]⟩
abbrev S64x8192 : Shape := ⟨2, ![64, 8192]⟩
abbrev S1024x2048 : Shape := ⟨2, ![1024, 2048]⟩
abbrev S1024x64 : Shape := ⟨2, ![1024, 64]⟩
abbrev S64x2048 : Shape := ⟨2, ![64, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x8192, .f32⟩
  | .hbm, ⟨3, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1024x64, .f32⟩
  | .local _ .vmem, ⟨3, _⟩ => ⟨S1024x64, .f32⟩
  | .local _ .vmem, ⟨4, _⟩ => ⟨S64x2048, .f32⟩
  | .local _ .vmem, ⟨5, _⟩ => ⟨S64x2048, .f32⟩
  | .local _ .vmem, ⟨6, _⟩ => ⟨S1024x2048, .f32⟩
  | .local _ .vmem, ⟨7, _⟩ => ⟨S1024x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S1024x2048_S1024x2048_0_0 : ∀ a, (![0, 0] : Fin 2 → Nat) a + S1024x2048.size a ≤ S1024x2048.size a
  h_S1024x2048 : 0 < S1024x2048.numel
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x8192.size a
  hwx0_2 : ∀ i : grid0.Coords, EltTy.bits .f32 = 32 ∨ (Rect.block (s := S64x8192) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x64 : Shape := ⟨2, ![8192, 64]⟩
abbrev S64x8192 : Shape := ⟨2, ![64, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x8192, .f32⟩
  | .hbm, ⟨3, _⟩ => ⟨S8192x8192, .f32⟩
  | .hbm, ⟨4, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.SampledProduct.lean ====
/-
  The sampled dense product, as one function of three arrays.

  Given x : [8192, 8192], y : [8192, 64] and z : [64, 8192] over the extended reals, the result at row r and
  column c is x[r, c] · Σ_{k < 64} y[r, k] · z[k, c]: the matrix product y·z, masked entry by entry by x.
  Both programs of this certificate compute this function; the tiled one computes it 1024 × 2048 entries at a
  time, the other in one piece. Nothing here depends on either program.
-/
import Idealize.ShloMosaic.PureOps.Ideal
import Idealize.ShloMosaic.Lib.ValueIdx

noncomputable section

open scoped BigOperators

namespace Cert.SampledProduct

open Idealize.ShloMosaic Idealize.ShloMosaic.ValueIdx

/-- Entry (r, c) of the sampled product: `x[r, c] · Σ_k y[r, k] · z[k, c]`, the sum over the 64 shared
    coordinates. The inner sum is a sum in the extended reals; no finiteness is assumed, and none is needed,
    because both programs add the same 64 products and multiply by the same entry of `x`. -/
def sampled (x : (⟨2, ![8192, 8192]⟩ : Shape).Idx → EReal) (y : (⟨2, ![8192, 64]⟩ : Shape).Idx → EReal)
    (z : (⟨2, ![64, 8192]⟩ : Shape).Idx → EReal) : (⟨2, ![8192, 8192]⟩ : Shape).Idx → EReal :=
  fun i => x i * ∑ k : Fin 64, y (ix2 (n0 := 8192) (n1 := 64) (i 0) k) * z (ix2 (n0 := 64) (n1 := 8192) k (i 1))

theorem sampled_apply (x : (⟨2, ![8192, 8192]⟩ : Shape).Idx → EReal) (y : (⟨2, ![8192, 64]⟩ : Shape).Idx → EReal)
    (z : (⟨2, ![64, 8192]⟩ : Shape).Idx → EReal) (i : (⟨2, ![8192, 8192]⟩ : Shape).Idx) :
    sampled x y z i = x i * ∑ k : Fin 64, y (ix2 (n0 := 8192) (n1 := 64) (i 0) k) * z (ix2 (n0 := 64) (n1 := 8192) k (i 1)) := rfl

end Cert.SampledProduct

end
-- ==== Proof.ReferenceSide.lean ====
/-
  The reference program computes the sampled product.

  Its two host operations are a contraction of y's second axis against z's first, and an entrywise product
  with x. Read at an index (r, c) the contraction is Σ_{k < 64} y[r, k] · z[k, c] (the generated read-at-an-index
  lemmas), so the result is x[r, c] times that sum: the function `sampled`.
-/
import proofs.«140541_j17961553232201_1_alg».proof.Proof.Gen.ReferenceIdeal.Read
import proofs.«140541_j17961553232201_1_alg».proof.Proof.SampledProduct

noncomputable section

open scoped BigOperators

namespace Cert.ReferenceIdeal.RefValue

open Cert.ReferenceIdeal Cert.ReferenceIdeal.Read Idealize.ShloMosaic Idealize.ShloMosaic.ValueIdx

/-- The left operand's index for output entry `i` and shared coordinate `k` is (row of `i`, `k`). -/
theorem left_index (i : S8192x8192.Idx) (k : Fin 64) : lidx_main_v0 i k = ix2 (n0 := 8192) (n1 := 64) (i 0) k :=
  funext fun a => Fin.ext (by match a with | ⟨0, _⟩ => rfl | ⟨1, _⟩ => rfl)

/-- The right operand's index is (`k`, column of `i`). -/
theorem right_index (i : S8192x8192.Idx) (k : Fin 64) : ridx_main_v0 i k = ix2 (n0 := 64) (n1 := 8192) k (i 1) :=
  funext fun a => Fin.ext (by match a with | ⟨0, _⟩ => rfl | ⟨1, _⟩ => rfl)

/-- The reference's result, as a function of its three arguments, is the sampled product. -/
theorem reference_eq (x : S8192x8192.Idx → EReal) (y : S8192x64.Idx → EReal) (z : S64x8192.Idx → EReal) :
    val_main_v1 (F := Ideal) x y z = Cert.SampledProduct.sampled x y z := by
  funext i
  rw [val_main_v1_apply, val_main_v0_apply, Cert.SampledProduct.sampled_apply]
  simp only [left_index, right_index]
  rfl

end Cert.ReferenceIdeal.RefValue

end
-- ==== Proof.TileEntry.lean ====
/-
  One tile of the kernel's output, entry by entry.

  At a grid point the kernel body holds a 1024 × 64 tile `a` of y, a 64 × 2048 tile `b` of z and a 1024 × 2048
  tile `s` of x. It narrows `a` and `b` to bf16 (at the ideal instance a change of format is the identity),
  multiplies them on the matrix unit into a zero accumulator, and multiplies the product entrywise by `s`.
  So entry (p, q) of what it stores is s[p, q] · Σ_{k < 64} a[p, k] · b[k, q]: the zero accumulator contributes
  0 + ·, and the matrix unit's contraction index, which has one axis of extent 64, is re-indexed by its one
  coordinate.
-/
import proofs.«140541_j17961553232201_1_alg».proof.Proof.Gen.KernelIdeal.Skeleton
import Idealize.ShloMosaic.Lib.ValueIdx
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-- The left operand is read at the output entry's row … -/
theorem left_row (j : S1024x2048.Idx) (κ : dot_S1024x64_S64x2048_S1024x2048_1_0_0_1_n_n.contr.Idx) :
    (dot_S1024x64_S64x2048_S1024x2048_1_0_0_1_n_n.lhsIdx j κ 0).val = (j 0).val := by
  unfold DotDims.lhsIdx
  rw [dif_neg (show ¬(0 : Fin S1024x64.rank) ∈ dot_S1024x64_S64x2048_S1024x2048_1_0_0_1_n_n.lhsBatch by decide), dif_pos (show (0 : Fin S1024x64.rank) ∈ dot_S1024x64_S64x2048_S1024x2048_1_0_0_1_n_n.lhsNonContracting by decide)]
  rfl

/-- … and at the shared coordinate; -/
theorem left_shared (j : S1024x2048.Idx) (κ : dot_S1024x64_S64x2048_S1024x2048_1_0_0_1_n_n.contr.Idx) :
    (dot_S1024x64_S64x2048_S1024x2048_1_0_0_1_n_n.lhsIdx j κ 1).val = (κ ⟨0, by decide⟩).val :=
  dot_S1024x64_S64x2048_S1024x2048_1_0_0_1_n_n.lhsIdx_val_of_single rfl j κ

/-- the right operand at the shared coordinate … -/
theorem right_shared (j : S1024x2048.Idx) (κ : dot_S1024x64_S64x2048_S1024x2048_1_0_0_1_n_n.contr.Idx) :
    (dot_S1024x64_S64x2048_S1024x2048_1_0_0_1_n_n.rhsIdx j κ 0).val = (κ ⟨0, by decide⟩).val :=
  dot_S1024x64_S64x2048_S1024x2048_1_0_0_1_n_n.rhsIdx_val_of_single rfl j κ

/-- … and at the output entry's column. -/
theorem right_col (j : S1024x2048.Idx) (κ : dot_S1024x64_S64x2048_S1024x2048_1_0_0_1_n_n.contr.Idx) :
    (dot_S1024x64_S64x2048_S1024x2048_1_0_0_1_n_n.rhsIdx j κ 1).val = (j 1).val := by
  unfold DotDims.rhsIdx
  rw [dif_neg (show ¬(1 : Fin S64x2048.rank) ∈ dot_S1024x64_S64x2048_S1024x2048_1_0_0_1_n_n.rhsBatch by decide), dif_pos (show (1 : Fin S64x2048.rank) ∈ dot_S1024x64_S64x2048_S1024x2048_1_0_0_1_n_n.rhsNonContracting by decide)]
  rfl

/-- Entry (p, q) of the stored tile: `s[p, q] · Σ_k a[p, k] · b[k, q]`. -/
theorem tile_entry (a : Vec Ideal S1024x64 .f32) (b : Vec Ideal S64x2048 .f32) (s : Vec Ideal S1024x2048 .f32)
    (p : Fin 1024) (q : Fin 2048) :
    k0_pay1 (F := Ideal) a b s (ix2 p q) = s (ix2 p q) * ∑ k : Fin 64, a (ix2 p k) * b (ix2 k q) := by
  unfold k0_pay1
  rw [mulf_apply]
  refine congrArg (fun u => s (ix2 p q) * u) ?_
  refine (Ideal.matmul_constant_zero_apply dot_S1024x64_S64x2048_S1024x2048_1_0_0_1_n_n none _ _ (ix2 p q)).trans ?_
  rw [← Equiv.sum_comp (contrEquiv1 dot_S1024x64_S64x2048_S1024x2048_1_0_0_1_n_n 64 rfl rfl).symm]
  refine Finset.sum_congr rfl fun k _ => ?_
  have hk := contrEquiv1_symm_val dot_S1024x64_S64x2048_S1024x2048_1_0_0_1_n_n 64 rfl rfl k
  have el : dot_S1024x64_S64x2048_S1024x2048_1_0_0_1_n_n.lhsIdx (ix2 p q) ((contrEquiv1 dot_S1024x64_S64x2048_S1024x2048_1_0_0_1_n_n 64 rfl rfl).symm k) = ix2 p k := funext fun d => Fin.ext (by
    match d with
    | ⟨0, _⟩ => exact left_row _ _
    | ⟨1, _⟩ => exact (left_shared _ _).trans hk)
  have er : dot_S1024x64_S64x2048_S1024x2048_1_0_0_1_n_n.rhsIdx (ix2 p q) ((contrEquiv1 dot_S1024x64_S64x2048_S1024x2048_1_0_0_1_n_n 64 rfl rfl).symm k) = ix2 k q := funext fun d => Fin.ext (by
    match d with
    | ⟨0, _⟩ => exact (right_shared _ _).trans hk
    | ⟨1, _⟩ => exact right_col _ _)
  rw [el, er]
  rfl

/-- The same at an index `j` of the tile, its coordinates `j 0` and `j 1`. -/
theorem tile_entry_at (a : Vec Ideal S1024x64 .f32) (b : Vec Ideal S64x2048 .f32) (s : Vec Ideal S1024x2048 .f32)
    (j : S1024x2048.Idx) :
    k0_pay1 (F := Ideal) a b s j
      = s j * ∑ k : Fin 64, a (ix2 (n0 := 1024) (n1 := 64) (j 0) k) * b (ix2 (n0 := 64) (n1 := 2048) k (j 1)) := by
  obtain ⟨p, q, rfl⟩ : ∃ (p : Fin 1024) (q : Fin 2048), j = ix2 p q := ⟨j 0, j 1, eq_ix2 j⟩
  exact tile_entry a b s p q

end Cert.KernelIdeal.TileValue

end
-- ==== Proof.TiledArray.lean ====
/-
  The kernel's output array is the sampled product.

  The grid has 8 × 4 points; point t works on tile (t / 4, t % 4) of the output, a block of 1024 rows and 2048
  columns. There it is given the same tile of x, row-tile t / 4 of y (all 64 columns) and column-tile t % 4 of
  z (all 64 rows). An entry (p, q) of the tile is entry (1024 · (t / 4) + p, 2048 · (t % 4) + q) of the
  array, and the rows of y and columns of z the body reads are exactly that entry's row and column: so what
  the point writes back is its tile of the one function `sampled` of the whole arrays. The 32 tiles cover
  the 8192 × 8192 array (entry (r, c) lies in the tile of point 4 · (r / 1024) + c / 2048), hence after the
  run the array is `sampled` of the three arguments.
-/
import proofs.«140541_j17961553232201_1_alg».proof.Proof.Gen.KernelIdeal.Value
import proofs.«140541_j17961553232201_1_alg».proof.Proof.SampledProduct
import proofs.«140541_j17961553232201_1_alg».proof.Proof.TileEntry

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.SampledProduct
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Which tile each window holds at point `t`, decided over the 32 points: the output and x at tile
    (t / 4, t % 4); y at row-tile t / 4, its one column-tile; z at its one row-tile, column-tile t % 4. -/
theorem tile_of_point : ∀ t : Fin cfg0.N,
    win0_3.index t (0 : Fin 2) = t.val / 4 ∧ win0_3.index t (1 : Fin 2) = t.val % 4
    ∧ win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4 :=
  (by decide +kernel : ∀ t : Fin grid0.N, _)

/-! ## The three input tiles at a point, read where the output tile's entry sits in the array -/

/-- x's tile at entry `j` is x at the array position of the output tile's entry `j`. -/
theorem x_tile (c : Dev nD) (t : Fin cfg0.N) (j : S1024x2048.Idx) :
    iblk m c 0 t j = V m c main_arg0 (((cfg0.win 3).blk t).view.emb j) := by
  obtain ⟨e0, e1, f0, f1, -⟩ := tile_of_point t
  show V m c main_arg0 (((cfg0.win 0).blk t).view.emb j) = V m c main_arg0 (((cfg0.win 3).blk t).view.emb j)
  refine congrArg (V m c main_arg0) ?_
  funext a; apply Fin.ext
  match a with
  | ⟨0, _⟩ => show win0_0.index t (0 : Fin 2) * 1024 + 1 * (j 0).val = win0_3.index t (0 : Fin 2) * 1024 + 1 * (j 0).val; omega
  | ⟨1, _⟩ => show win0_0.index t (1 : Fin 2) * 2048 + 1 * (j 1).val = win0_3.index t (1 : Fin 2) * 2048 + 1 * (j 1).val; omega

/-- y's tile at (row of `j`, `k`) is y at (array row of the output entry, `k`). -/
theorem y_tile (c : Dev nD) (t : Fin cfg0.N) (j : S1024x2048.Idx) (k : Fin 64) :
    iblk m c 1 t (ix2 (n0 := 1024) (n1 := 64) (j 0) k)
      = V m c main_arg1 (ix2 (n0 := 8192) (n1 := 64) ((((cfg0.win 3).blk t).view.emb j) 0) k) := by
  obtain ⟨e0, e1, -, -, g0, g1, -⟩ := tile_of_point t
  show V m c main_arg1 (((cfg0.win 1).blk t).view.emb (ix2 (n0 := 1024) (n1 := 64) (j 0) k)) = _
  refine congrArg (V m c main_arg1) ?_
  funext a; apply Fin.ext
  match a with
  | ⟨0, _⟩ => show win0_1.index t (0 : Fin 2) * 1024 + 1 * (j 0).val = win0_3.index t (0 : Fin 2) * 1024 + 1 * (j 0).val; omega
  | ⟨1, _⟩ => show win0_1.index t (1 : Fin 2) * 64 + 1 * k.val = k.val; omega

/-- z's tile at (`k`, column of `j`) is z at (`k`, array column of the output entry). -/
theorem z_tile (c : Dev nD) (t : Fin cfg0.N) (j : S1024x2048.Idx) (k : Fin 64) :
    iblk m c 2 t (ix2 (n0 := 64) (n1 := 2048) k (j 1))
      = V m c main_arg2 (ix2 (n0 := 64) (n1 := 8192) k ((((cfg0.win 3).blk t).view.emb j) 1)) := by
  obtain ⟨e0, e1, -, -, -, -, h0, h1⟩ := tile_of_point t
  show V m c main_arg2 (((cfg0.win 2).blk t).view.emb (ix2 (n0 := 64) (n1 := 2048) k (j 1))) = _
  refine congrArg (V m c main_arg2) ?_
  funext a; apply Fin.ext
  match a with
  | ⟨0, _⟩ => show win0_2.index t (0 : Fin 2) * 64 + 1 * k.val = k.val; omega
  | ⟨1, _⟩ => show win0_2.index t (1 : Fin 2) * 2048 + 1 * (j 1).val = win0_3.index t (1 : Fin 2) * 2048 + 1 * (j 1).val; omega

/-! ## What a point writes back -/

/-- Point `t` writes back its tile of `sampled` of the arrays as the region finds them. -/
theorem flushed_eq (c : Dev nD) (t : Fin cfg0.N) :
    (dats m 0 c).flushed 3 t = ((cfg0.win 3).blk t).view.read (Elt Ideal)
      (sampled (V m c main_arg0) (V m c main_arg1) (V m c main_arg2)) := by
  rw [Cert.KernelIdeal.Value.flushed3]
  unfold out0_3
  rw [View.canon_unit_zero zero_offsets]
  simp only [View.ld_unit_zero (S := S1024x64) zero_offsets, View.ld_unit_zero (S := S64x2048) zero_offsets,
    View.ld_unit_zero (S := S1024x2048) zero_offsets]
  funext j
  show k0_pay1 (iblk m c 1 t) (iblk m c 2 t) (iblk m c 0 t) j
    = sampled (V m c main_arg0) (V m c main_arg1) (V m c main_arg2) (((cfg0.win 3).blk t).view.emb j)
  refine (Cert.KernelIdeal.TileValue.tile_entry_at (iblk m c 1 t) (iblk m c 2 t) (iblk m c 0 t) j).trans ?_
  rw [sampled_apply]
  exact congrArg₂ (· * ·) (x_tile m c t j)
    (Finset.sum_congr rfl fun k _ => congrArg₂ (· * ·) (y_tile m c t j k) (z_tile m c t j k))

/-! ## The tiles cover the array -/

/-- An entry of the array is in point `t`'s tile iff each coordinate is in the tile's range on its axis. -/
theorem mem_tile (t : Fin cfg0.N) (i : S8192x8192.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v0).slice (win0_3.rect t)).set ↔ _
  rw [View.set_slice_whole, Rect.mem_set_unit]
  exact Iff.rfl

/-- Entry (r, c) lies in the tile of point 4 · (r / 1024) + c / 2048, and every point writes back. -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  have hN : grid0.N = 32 := N_0
  obtain ⟨t, ht⟩ : ∃ t : Fin cfg0.N, t.val = 4 * ((i 0).val / 1024) + (i 1).val / 2048 :=
    ⟨⟨4 * ((i 0).val / 1024) + (i 1).val / 2048, by show _ < grid0.N; rw [hN]; omega⟩, rfl⟩
  obtain ⟨e0, e1, -⟩ := tile_of_point t
  refine ⟨t, flush0_3 t, ?_⟩
  rw [mem_tile]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 2048 ≤ (i 1).val ∧ (i 1).val < win0_3.index t (1 : Fin 2) * 2048 + 2048
    omega

/-! ## The array after the run, and the run -/

/-- After the run the output array is the sampled product of the three argument arrays. -/
theorem final (c : Dev nD) : (dats m 0 c).arrAt 3 cfg0.N
    = sampled (m ((c : Thread nD τ).loc main_arg0)) (m ((c : Thread nD τ).loc main_arg1)) (m ((c : Thread nD τ).loc main_arg2)) :=
  (dats m 0 c).arrAt_eq_of_cover 3 (sampled (V m c main_arg0) (V m c main_arg1) (V m c main_arg2))
    (fun t _ => flushed_eq m c t) covered

/-- Every weakly fair execution of the tiled program ends with the result array at the sampled product of the
    arguments and the arguments unchanged. -/
theorem run : θ_run defs (onTc (τ := τ) (main (F := Ideal))) ⟨m, fun _ => 0, ρ⟩ fun r => ∀ c : Dev nD,
      r.2.mem ((c : Thread nD τ).loc main_v0)
        = sampled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.lean ====
/-
  A tiled sampled dense product against its one-piece reference.

  Both programs take x : [8192, 8192], y : [8192, 64], z : [64, 8192] and return x ⊙ (y · z): entry (r, c) is
  x[r, c] · Σ_{k < 64} y[r, k] · z[k, c]. The kernel computes it tile by tile on an 8 × 4 grid (tiles of
  1024 × 2048 entries, the operands narrowed to bf16 on their way into the matrix unit); the reference applies
  one contraction and one entrywise product to the whole arrays. At the ideal instance a change of float format
  is the identity and both contractions are the same sum of 64 products, so the two results are the same
  function `Cert.SampledProduct.sampled` of the arguments, entry by entry, on all extended reals: the
  finiteness of the inputs is never used.

  The pieces: `SampledProduct` states the function; `ReferenceSide` reads the reference's two operations at
  an index and finds it; `TileEntry` reads one entry of the kernel body's stored tile; `TiledArray` places the
  tiles in the array (each point's tile of the inputs sits where its output tile sits, and the 32 tiles cover
  the array). The three frames are the programs' runs with the values dropped; the idealization rewrote
  nothing, so there is nothing to preserve.
-/
import proofs.«140541_j17961553232201_1_alg».proof.Defs
import proofs.«140541_j17961553232201_1_alg».proof.Proof.Gen.Kernel
import proofs.«140541_j17961553232201_1_alg».proof.Proof.Gen.Kernel.Skeleton
import proofs.«140541_j17961553232201_1_alg».proof.Proof.Gen.Kernel.Launch
import proofs.«140541_j17961553232201_1_alg».proof.Proof.Gen.Kernel.Points
import proofs.«140541_j17961553232201_1_alg».proof.Proof.Gen.Kernel.Frame
import proofs.«140541_j17961553232201_1_alg».proof.Proof.Gen.KernelIdeal
import proofs.«140541_j17961553232201_1_alg».proof.Proof.Gen.KernelIdeal.Skeleton
import proofs.«140541_j17961553232201_1_alg».proof.Proof.Gen.KernelIdeal.Launch
import proofs.«140541_j17961553232201_1_alg».proof.Proof.Gen.KernelIdeal.Points
import proofs.«140541_j17961553232201_1_alg».proof.Proof.Gen.KernelIdeal.Frame
import proofs.«140541_j17961553232201_1_alg».proof.Proof.Gen.ReferenceIdeal
import proofs.«140541_j17961553232201_1_alg».proof.Proof.Gen.KernelIdeal.Value
import proofs.«140541_j17961553232201_1_alg».proof.Proof.Gen.ReferenceIdeal.Run
import proofs.«140541_j17961553232201_1_alg».proof.Proof.Gen.ReferenceIdeal.Read
import proofs.«140541_j17961553232201_1_alg».proof.Proof.Gen.Pre_finite_inputs
import proofs.«140541_j17961553232201_1_alg».proof.Proof.ReferenceSide
import proofs.«140541_j17961553232201_1_alg».proof.Proof.TiledArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel :=
  fun m ρ _ => Cert.Kernel.Gen.frame m ρ

/-- So does the kernel read at the ideal instance. -/
theorem frame_kernel_ideal : Cert.frame_KernelIdeal :=
  fun m ρ _ => Cert.KernelIdeal.Gen.frame m ρ

/-- The reference has no kernel: its frame is its run with the result's value dropped. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- From memories that agree on x, y and z, both programs end with their result arrays at the sampled product
    of the kernel's arguments: the kernel by its tiles, the reference by its two operations read at an index. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
